-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S4096x1024 : Shape := ⟨2, ![4096, 1024]⟩
abbrev S4096 : Shape := ⟨1, ![4096]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S8x2048x1024 .f32) (main_arg1 : FVec F S4096x1024 .f32) (main_arg2 : FVec F S4096 .f32) (main_arg3 : FVec F S4096x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S8x2048x1024 : Shape := ⟨3, ![8, 2048, 1024]⟩
abbrev S4096x1024 : Shape := ⟨2, ![4096, 1024]⟩
abbrev S4096 : Shape := ⟨1, ![4096]⟩
abbrev S16384x1024 : Shape := ⟨2, ![16384, 1024]⟩
abbrev S1x4096 : Shape := ⟨2, ![1, 4096]⟩
abbrev S16384x4096 : Shape := ⟨2, ![16384, 4096]⟩
abbrev S512x1024 : Shape := ⟨2, ![512, 1024]⟩
abbrev S512x4096 : Shape := ⟨2, ![512, 4096]⟩
abbrev S8x2048x4096 : Shape := ⟨3, ![8, 2048, 4096]⟩

abbrev nBuf : Space → Nat
  | .hbm => 10
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S4096x1024, .f32⟩
  | .hbm, ⟨2, _⟩ => ⟨S4096, .f32⟩
  | .hbm, ⟨3, _⟩ => ⟨S4096x1024, .f32⟩
  | .hbm, ⟨4, _⟩ => ⟨S16384x1024, .f32⟩
  | .hbm, ⟨5, _⟩ => ⟨S1x4096, .f32⟩
  | .hbm, ⟨6, _⟩ => ⟨S4096x1024, .f32⟩
  | .hbm, ⟨7, _⟩ => ⟨S4096x1024, .bf16⟩
  | .hbm, ⟨8, _⟩ => ⟨S16384x4096, .f32⟩
  | .hbm, ⟨9, _⟩ => ⟨S8x2048x4096, .f32⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x2048x1024_S16384x1024 : S8x2048x1024.ShapeCasts S16384x1024
  shapeCasts_S4096_S1x4096 : S4096.ShapeCasts S1x4096
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  shapeCasts_S16384x4096_S8x2048x4096 : S16384x4096.ShapeCasts S8x2048x4096
  dot_S512x1024_S4096x1024_S512x4096_1_1_0_0_n_n_wf : DotDims.WF S512x1024 S4096x1024 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S4096x1024 : Shape := ⟨2, ![4096, 1024]⟩
abbrev S4096 : Shape := ⟨1, ![4096]⟩
abbrev S8x2048x4096 : Shape := ⟨3, ![8, 2048, 4096]⟩
abbrev S1x1x4096 : Shape := ⟨3, ![1, 1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4096x1024, .f32⟩
  | .hbm, ⟨2, _⟩ => ⟨S4096, .f32⟩
  | .hbm, ⟨3, _⟩ => ⟨S4096x1024, .f32⟩
  | .hbm, ⟨4, _⟩ => ⟨S4096x1024, .f32⟩
  | .hbm, ⟨5, _⟩ => ⟨S8x2048x4096, .f32⟩
  | .hbm, ⟨6, _⟩ => ⟨S1x1x4096, .f32⟩
  | .hbm, ⟨7, _⟩ => ⟨S8x2048x4096, .f32⟩
  | .hbm, ⟨8, _⟩ => ⟨S8x2048x4096, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x1024_S4096x1024_S8x2048x4096_2_1_01_0_n_n_wf : DotDims.WF S8x2048x1024 S4096x1024 S8x2048x4096 [2] [1] [0, 1] [0] [] []

variable [Facts₀]

def dot_S8x2048x1024_S4096x1024_S8x2048x4096_2_1_01_0_n_n : DotDims S8x2048x1024 S4096x1024 S8x2048x4096 where
  lhsContracting := [2]
  rhsContracting := [1]
  lhsNonContracting := [0, 1]
  rhsNonContracting := [0]
  lhsBatch := []
  rhsBatch := []
  wf := dot_S8x2048x1024_S4096x1024_S8x2048x4096_2_1_01_0_n_n_wf

class Facts : Prop extends Facts₀ where

variable [Facts]
-- ==== Proof.Spec.lean ====
/-
  The function both programs compute: a linear layer whose weight matrix is first multiplied entry by entry with a
  mask. For x : [8, 2048, 1024], w, mask : [4096, 1024] and bias : [4096], over the extended reals,

      y[b, s, o] = (Σ k < 1024, x[b, s, k] · (mask[o, k] · w[o, k])) + bias[o].

  The same function of the 16384 = 8 · 2048 flattened rows, r = 2048 · b + s, is stated beside it (`rowsLinear`): that is
  the form in which one program produces it, 512 rows at a time, before the rows are regrouped into [8, 2048].
  Nothing here needs the entries to be finite: the only law used between the two programs is that a product of two
  extended reals does not depend on the order of its factors.
-/
import Idealize.ShloMosaic.PureOps.Ideal
import Idealize.ShloMosaic.Lib.ValueIdx

noncomputable section

namespace Cert.MaskedLinear

open Idealize.ShloMosaic Idealize.ShloMosaic.ValueIdx

/-- The masked linear layer at output index (b, s, o): the row x[b, s, ·] against row o of mask ⊙ w, plus bias[o]. -/
def maskedLinear (x : (⟨3, ![8, 2048, 1024]⟩ : Shape).Idx → EReal) (w mask : (⟨2, ![4096, 1024]⟩ : Shape).Idx → EReal)
    (bias : (⟨1, ![4096]⟩ : Shape).Idx → EReal) : (⟨3, ![8, 2048, 4096]⟩ : Shape).Idx → EReal :=
  fun i => (∑ k : Fin 1024, x (ix3 (i 0) (i 1) k) * (mask (ix2 (i 2) k) * w (ix2 (i 2) k))) + bias (ix1 (i 2))

/-- A plain product of a [16384, 1024] array of rows with the transpose of a [4096, 1024] matrix, plus a [1, 4096] row
    added to every row of the result: entry (r, o) is Σ k, rows[r, k] · mat[o, k] + add[0, o]. -/
def rowsLinear (rows : (⟨2, ![16384, 1024]⟩ : Shape).Idx → EReal) (mat : (⟨2, ![4096, 1024]⟩ : Shape).Idx → EReal)
    (add : (⟨2, ![1, 4096]⟩ : Shape).Idx → EReal) : (⟨2, ![16384, 4096]⟩ : Shape).Idx → EReal :=
  fun j => (∑ k : Fin 1024, rows (ix2 (j 0) k) * mat (ix2 (j 1) k)) + add (ix2 (0 : Fin 1) (j 1))

end Cert.MaskedLinear

end
-- ==== Proof.RefSpec.lean ====
/-
  The reference program's result is the masked linear layer: its five host operations — mask ⊙ w, the contraction
  of x's last axis with the last axis of that product, the bias spread over the leading axes, the sum — read at an
  output index (b, s, o) give Σ k, x[b, s, k] · (mask[o, k] · w[o, k]) + bias[o], term for term.
-/
import proofs.«166903_j25769803815_2_alg».proof.Proof.Gen.ReferenceIdeal.Read
import proofs.«166903_j25769803815_2_alg».proof.Proof.Spec

noncomputable section

namespace Cert.MaskedLinear

open Idealize.ShloMosaic Idealize.ShloMosaic.ValueIdx
open Cert.ReferenceIdeal Cert.ReferenceIdeal.Read

/-- The reference's last stage, as a function of the four argument arrays, is `maskedLinear`. -/
theorem reference_eq (x0 : (⟨S8x2048x1024, .f32⟩ : BufTy).Contents (Elt Ideal)) (x1 : (⟨S4096x1024, .f32⟩ : BufTy).Contents (Elt Ideal))
    (x2 : (⟨S4096, .f32⟩ : BufTy).Contents (Elt Ideal)) (x3 : (⟨S4096x1024, .f32⟩ : BufTy).Contents (Elt Ideal)) :
    val_main_v4 (F := Ideal) x0 x1 x2 x3 = maskedLinear x0 x1 x3 x2 := by
  funext i
  have el : ∀ k : Fin 1024, lidx_main_v1 i k = ix3 (i 0) (i 1) k := fun k => funext fun a => by
    match a with
    | ⟨0, _⟩ => rfl
    | ⟨1, _⟩ => rfl
    | ⟨2, _⟩ => rfl
  have er : ∀ k : Fin 1024, ridx_main_v1 i k = ix2 (i 2) k := fun k => funext fun a => by
    match a with
    | ⟨0, _⟩ => rfl
    | ⟨1, _⟩ => rfl
  have eb : idx_main_v2 (idx_main_v3 i) = ix1 (i 2) := funext fun a => by
    match a with
    | ⟨0, _⟩ => rfl
  rw [val_main_v4_apply, val_main_v1_apply, val_main_v3_apply, val_main_v2_apply]
  simp only [val_main_v0_apply, Ideal.addf_def, Ideal.mulf_def, el, er, eb]
  rfl

end Cert.MaskedLinear

end
-- ==== Proof.Entry.lean ====
/-
  The three arrays the grid reads, as the host operations before it leave them: the rows are x with its two leading
  axes merged ([8, 2048, 1024] read as [16384, 1024], row 2048 · b + s being x[b, s, ·]); the matrix is w ⊙ mask, entry by
  entry (its change of float format is the identity over the extended reals); the row to add is the bias as a [1, 4096]
  array.
-/
import proofs.«166903_j25769803815_2_alg».proof.Proof.Gen.KernelIdeal.Frame
import Idealize.ShloMosaic.Lib.Pipeline.Value
import Idealize.ShloMosaic.Lib.StableHlo.Run
import Idealize.ShloMosaic.Lib.ValueIdx

noncomputable section

namespace Cert.MaskedLinear

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The rows: x regrouped from [8, 2048, 1024] to [16384, 1024]. -/
theorem entry_rows (c : Dev nD) : (V m c main_v0 : S16384x1024.Idx → EReal)
    = shapeCast S16384x1024 (m ((c : Thread nD τ).loc main_arg0)) shapeCasts_S8x2048x1024_S16384x1024 := by
  show StableHlo.after hostOps0 (fun b => m (c, b)) (Proc.devRef .tc main_v0) = _
  after_results
  rfl

/-- The matrix: w ⊙ mask. -/
theorem entry_mat (c : Dev nD) : (V m c main_v3 : S4096x1024.Idx → EReal)
    = (truncf .bf16 (mulf (m ((c : Thread nD τ).loc main_arg1) : FVec Ideal S4096x1024 .f32) (m ((c : Thread nD τ).loc main_arg3) : FVec Ideal S4096x1024 .f32)) bitsLt_bf16_f32 : FVec Ideal S4096x1024 .bf16) := by
  show StableHlo.after hostOps0 (fun b => m (c, b)) (Proc.devRef .tc main_v3) = _
  after_results

/-- The row to add: the bias as a [1, 4096] array. -/
theorem entry_add (c : Dev nD) : (V m c main_v1 : S1x4096.Idx → EReal)
    = shapeCast S1x4096 (m ((c : Thread nD τ).loc main_arg2)) shapeCasts_S4096_S1x4096 := by
  show StableHlo.after hostOps0 (fun b => m (c, b)) (Proc.devRef .tc main_v1) = _
  after_results
  rfl

/-- Row 2048 · b + s of the rows, at column k, is x[b, s, k]. -/
theorem entry_rows_apply (c : Dev nD) (b : Fin 8) (s : Fin 2048) (k : Fin 1024) (r : Fin 16384) (hr : r.val = 2048 * b.val + s.val) :
    (V m c main_v0 : S16384x1024.Idx → EReal) (ix2 r k) = (m ((c : Thread nD τ).loc main_arg0) : S8x2048x1024.Idx → EReal) (ix3 b s k) := by
  rw [entry_rows]
  refine shapeCast_apply _ _ (ix2 r k) (ix3 b s k) ?_
  rw [Shape.rowMajor_val_three, Shape.rowMajor_val_two]
  show (b.val * 2048 + s.val) * 1024 + k.val = r.val * 1024 + k.val
  rw [hr]; ring

/-- Entry (o, k) of the matrix is w[o, k] · mask[o, k]: the entrywise product of the two arrays, read at (o, k). -/
theorem entry_mat_apply (c : Dev nD) (i : S4096x1024.Idx) :
    (V m c main_v3 : S4096x1024.Idx → EReal) i
      = (mulf (m ((c : Thread nD τ).loc main_arg1) : FVec Ideal S4096x1024 .f32) (m ((c : Thread nD τ).loc main_arg3) : FVec Ideal S4096x1024 .f32) : FVec Ideal S4096x1024 .f32) i := by
  rw [entry_mat]
  rfl

/-- Entry (0, o) of the row to add is bias[o]. -/
theorem entry_add_apply (c : Dev nD) (o : Fin 4096) :
    (V m c main_v1 : S1x4096.Idx → EReal) (ix2 (0 : Fin 1) o) = (m ((c : Thread nD τ).loc main_arg2) : S4096.Idx → EReal) (ix1 o) := by
  rw [entry_add]
  refine shapeCast_apply _ _ (ix2 (0 : Fin 1) o) (ix1 o) ?_
  rw [Shape.rowMajor_val_one, Shape.rowMajor_val_two]
  show o.val = 0 * 4096 + o.val
  omega

end Cert.MaskedLinear

end
-- ==== Proof.Body.lean ====
/-
  What one grid point computes. The body loads a [512, 1024] block of rows, the whole [4096, 1024] matrix and the
  [1, 4096] row to add, multiplies the rows with the transpose of the matrix (contracting the two length-1024 axes,
  starting from zero) and adds the row to each of the 512 result rows. Over the extended reals the changes of float
  format it makes on the way are the identity, so entry (p, q) of what it stores is

      Σ k < 1024, rows[p, k] · mat[q, k]  +  add[0, q].
-/
import proofs.«166903_j25769803815_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.MaskedLinear

open Idealize.ShloMosaic Idealize.ShloMosaic.ValueIdx
open Cert.KernelIdeal Cert.KernelIdeal.Gen

/-- The left operand's index at output (p, q) and contraction position k: row p is kept, -/
theorem lhs_row (j : S512x4096.Idx) (r : dot_S512x1024_S4096x1024_S512x4096_1_1_0_0_n_n.contr.Idx) : (dot_S512x1024_S4096x1024_S512x4096_1_1_0_0_n_n.lhsIdx j r 0).val = (j 0).val := by
  unfold DotDims.lhsIdx
  rw [dif_neg (show ¬(0 : Fin S512x1024.rank) ∈ dot_S512x1024_S4096x1024_S512x4096_1_1_0_0_n_n.lhsBatch by decide), dif_pos (show (0 : Fin S512x1024.rank) ∈ dot_S512x1024_S4096x1024_S512x4096_1_1_0_0_n_n.lhsNonContracting by decide)]
  rfl
/-- and the column is the contraction position. -/
theorem lhs_col (j : S512x4096.Idx) (r : dot_S512x1024_S4096x1024_S512x4096_1_1_0_0_n_n.contr.Idx) : (dot_S512x1024_S4096x1024_S512x4096_1_1_0_0_n_n.lhsIdx j r 1).val = (r ⟨0, by decide⟩).val :=
  dot_S512x1024_S4096x1024_S512x4096_1_1_0_0_n_n.lhsIdx_val_of_single rfl j r
/-- The right operand's: its row is the output's column q, -/
theorem rhs_row (j : S512x4096.Idx) (r : dot_S512x1024_S4096x1024_S512x4096_1_1_0_0_n_n.contr.Idx) : (dot_S512x1024_S4096x1024_S512x4096_1_1_0_0_n_n.rhsIdx j r 0).val = (j 1).val := by
  unfold DotDims.rhsIdx
  rw [dif_neg (show ¬(0 : Fin S4096x1024.rank) ∈ dot_S512x1024_S4096x1024_S512x4096_1_1_0_0_n_n.rhsBatch by decide), dif_pos (show (0 : Fin S4096x1024.rank) ∈ dot_S512x1024_S4096x1024_S512x4096_1_1_0_0_n_n.rhsNonContracting by decide)]
  rfl
/-- and its column the contraction position. -/
theorem rhs_col (j : S512x4096.Idx) (r : dot_S512x1024_S4096x1024_S512x4096_1_1_0_0_n_n.contr.Idx) : (dot_S512x1024_S4096x1024_S512x4096_1_1_0_0_n_n.rhsIdx j r 1).val = (r ⟨0, by decide⟩).val :=
  dot_S512x1024_S4096x1024_S512x4096_1_1_0_0_n_n.rhsIdx_val_of_single rfl j r

/-- The product into a zero accumulator, at (p, q): the sum over k of left[p, k] · right[q, k]. -/
theorem product_apply (l : FVec Ideal S512x1024 .bf16) (r : FVec Ideal S4096x1024 .bf16) (p : Fin 512) (q : Fin 4096) :
    matmul dot_S512x1024_S4096x1024_S512x4096_1_1_0_0_n_n none l r (constant (F := Ideal) S512x4096 .f32 0x00000000#32) (ix2 p q) = ∑ k : Fin 1024, l (ix2 p k) * r (ix2 q k) := by
  simp only [matmul]
  rw [Ideal.matmul_constant_zero_apply, ← Equiv.sum_comp (contrEquiv1 dot_S512x1024_S4096x1024_S512x4096_1_1_0_0_n_n 1024 rfl rfl).symm]
  refine Finset.sum_congr rfl fun k _ => ?_
  have hk := contrEquiv1_symm_val dot_S512x1024_S4096x1024_S512x4096_1_1_0_0_n_n 1024 rfl rfl k
  have el : dot_S512x1024_S4096x1024_S512x4096_1_1_0_0_n_n.lhsIdx (ix2 p q) ((contrEquiv1 dot_S512x1024_S4096x1024_S512x4096_1_1_0_0_n_n 1024 rfl rfl).symm k) = ix2 p k := funext fun a => Fin.ext (by
    match a with
    | ⟨0, _⟩ => exact lhs_row _ _
    | ⟨1, _⟩ => exact (lhs_col _ _).trans hk)
  have er : dot_S512x1024_S4096x1024_S512x4096_1_1_0_0_n_n.rhsIdx (ix2 p q) ((contrEquiv1 dot_S512x1024_S4096x1024_S512x4096_1_1_0_0_n_n 1024 rfl rfl).symm k) = ix2 q k := funext fun a => Fin.ext (by
    match a with
    | ⟨0, _⟩ => exact rhs_row _ _
    | ⟨1, _⟩ => exact (rhs_col _ _).trans hk)
  rw [el, er]

/-- The [1, 4096] row copied into each of 512 rows, at (p, q): the row's entry q. -/
theorem spread_apply (v : FVec Ideal S1x4096 .f32) (p : Fin 512) (q : Fin 4096) :
    broadcastTo S512x4096 v broadcasts_S1x4096_S512x4096 (ix2 p q) = v (ix2 (0 : Fin 1) q) :=
  broadcastTo_apply v _ (ix2 p q) (ix2 (0 : Fin 1) q) (fun a => by
    match a with
    | ⟨0, _⟩ => rfl
    | ⟨1, _⟩ => rfl)

/-- Entry (p, q) of what the body stores, from the three blocks it loads. -/
theorem body_apply (v0 : Vec Ideal S512x1024 .f32) (v3 : Vec Ideal S4096x1024 .bf16) (v6 : Vec Ideal S1x4096 .f32)
    (p : Fin 512) (q : Fin 4096) :
    k0_pay1 (F := Ideal) v0 v3 v6 (ix2 p q) = (∑ k : Fin 1024, v0 (ix2 p k) * v3 (ix2 q k)) + v6 (ix2 (0 : Fin 1) q) := by
  unfold k0_pay1
  simp only [shapeCast_self]
  rw [addf_apply, product_apply, spread_apply]
  rfl

end Cert.MaskedLinear

end
-- ==== Proof.Blocks.lean ====
/-
  From the 32 grid points to the whole [16384, 4096] array. Point t reads rows 512 t … 512 t + 511 of the rows array, the
  whole matrix and the whole row to add, and writes rows 512 t … 512 t + 511 of the result. Each entry it writes is the entry
  of ONE function of the three arrays, `rowsLinear`, at the entry's position in the whole array; the 32 row blocks fill the
  array (row r lies in block r / 512), so after the last point the array is that function.
-/
import proofs.«166903_j25769803815_2_alg».proof.Proof.Gen.KernelIdeal.Frame
import proofs.«166903_j25769803815_2_alg».proof.Proof.Spec
import proofs.«166903_j25769803815_2_alg».proof.Proof.Body
import Idealize.ShloMosaic.Lib.Pipeline.Value
import Idealize.ShloMosaic.Lib.ValueIdx

noncomputable section

namespace Cert.MaskedLinear

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem zero_offsets : (![0, 0] : Fin 2 → Nat) = fun _ => 0 := funext fun a => by fin_cases a <;> rfl

/-- Where each operand's block sits at point t: the rows and the result at block row t, the matrix and the row to add
    always at their one block. Decided over the 32 points. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows' block at point t: its row p is row 512 t + p of the rows array. -/
theorem rows_block (c : Dev nD) (t : Fin cfg0.N) (p : Fin 512) (k : Fin 1024) (r : Fin 16384) (hr : r.val = t.val * 512 + p.val) :
    (iblk m c 0 t : Vec Ideal S512x1024 .f32) (ix2 p k) = (V m c main_v0 : S16384x1024.Idx → EReal) (ix2 r k) := by
  obtain ⟨e00, e01, -⟩ := block_positions t
  unfold iblk
  rw [View.read_apply]
  show V m c main_v0 _ = V m c main_v0 _
  congr 1
  funext a
  apply Fin.ext
  match a with
  | ⟨0, _⟩ => show win0_0.index t (0 : Fin 2) * 512 + 1 * p.val = r.val; rw [e00, hr]; omega
  | ⟨1, _⟩ => show win0_0.index t (1 : Fin 2) * 1024 + 1 * k.val = k.val; rw [e01]; omega

/-- The matrix's block at any point is the whole matrix. -/
theorem mat_block (c : Dev nD) (t : Fin cfg0.N) (y : S4096x1024.Idx) :
    (iblk m c 1 t : Vec Ideal S4096x1024 .bf16) y = (V m c main_v3 : S4096x1024.Idx → EReal) y := by
  obtain ⟨-, -, e10, e11, -⟩ := block_positions t
  unfold iblk
  rw [View.read_apply]
  show V m c main_v3 _ = V m c main_v3 _
  congr 1
  funext a
  apply Fin.ext
  match a with
  | ⟨0, _⟩ => show win0_1.index t (0 : Fin 2) * 4096 + 1 * (y 0).val = (y 0).val; rw [e10]; omega
  | ⟨1, _⟩ => show win0_1.index t (1 : Fin 2) * 1024 + 1 * (y 1).val = (y 1).val; rw [e11]; omega

/-- The block of the row to add at any point is the whole row. -/
theorem add_block (c : Dev nD) (t : Fin cfg0.N) (y : S1x4096.Idx) :
    (iblk m c 2 t : Vec Ideal S1x4096 .f32) y = (V m c main_v1 : S1x4096.Idx → EReal) y := by
  obtain ⟨-, -, -, -, e20, e21, -⟩ := block_positions t
  unfold iblk
  rw [View.read_apply]
  show V m c main_v1 _ = V m c main_v1 _
  congr 1
  funext a
  apply Fin.ext
  match a with
  | ⟨0, _⟩ => show win0_2.index t (0 : Fin 2) * 1 + 1 * (y 0).val = (y 0).val; rw [e20]; omega
  | ⟨1, _⟩ => show win0_2.index t (1 : Fin 2) * 4096 + 1 * (y 1).val = (y 1).val; rw [e21]; omega

/-- One stored entry: for blocks that are rows 512 t … of `X`, all of `W` and all of `B`, the body's entry at block
    position j is `rowsLinear X W B` at the array position i = (512 t + j₀, j₁). -/
theorem stored_entry (v0 : Vec Ideal S512x1024 .f32) (v3 : Vec Ideal S4096x1024 .bf16) (v6 : Vec Ideal S1x4096 .f32)
    (X : S16384x1024.Idx → EReal) (W : S4096x1024.Idx → EReal) (B : S1x4096.Idx → EReal) (t : Nat)
    (h0 : ∀ (p : Fin 512) (k : Fin 1024) (r : Fin 16384), r.val = t * 512 + p.val → v0 (ix2 p k) = X (ix2 r k))
    (h3 : ∀ y, v3 y = W y) (h6 : ∀ y, v6 y = B y)
    (j : S512x4096.Idx) (i : S16384x4096.Idx) (hi0 : (i 0).val = t * 512 + (j 0).val) (hi1 : (i 1).val = (j 1).val) :
    k0_pay1 (F := Ideal) v0 v3 v6 j = rowsLinear X W B i := by
  obtain ⟨p, q, rfl⟩ : ∃ (p : Fin 512) (q : Fin 4096), j = ix2 p q := ⟨j 0, j 1, eq_ix2 j⟩
  have hq : i 1 = q := Fin.ext hi1
  rw [body_apply]
  unfold rowsLinear
  rw [hq, h6]
  refine congrArg (· + B (ix2 (0 : Fin 1) q)) (Finset.sum_congr rfl fun k _ => ?_)
  rw [h0 p k (i 0) hi0, h3]

/-- What point t writes back is block t of `rowsLinear` of the three arrays the grid reads. -/
theorem written_block (c : Dev nD) (t : Fin cfg0.N) :
    (dats m 0 c).flushed 3 t = ((cfg0.win 3).blk t).view.read (Elt Ideal) (rowsLinear (V m c main_v0) (V m c main_v3) (V m c main_v1)) := by
  show (cfg0.win 3).cut (grid0.coords t) ((dats m 0 c).after 3 t) = _
  rw [after0_3]
  unfold out0_3
  rw [View.canon_unit_zero zero_offsets]
  simp only [View.ld_unit_zero (S := S512x1024) zero_offsets, View.ld_unit_zero (S := S4096x1024) zero_offsets, View.ld_unit_zero (S := S1x4096) zero_offsets]
  obtain ⟨-, -, -, -, -, -, e30, e31⟩ := block_positions t
  refine funext fun (j : S512x4096.Idx) => ?_
  show k0_pay1 (F := Ideal) (iblk m c 0 t) (iblk m c 1 t) (iblk m c 2 t) j
    = rowsLinear (V m c main_v0) (V m c main_v3) (V m c main_v1) (((cfg0.win 3).blk t).view.emb j)
  refine stored_entry (iblk m c 0 t) (iblk m c 1 t) (iblk m c 2 t) _ _ _ t.val (rows_block m c t) (mat_block m c t) (add_block m c t) j _ ?_ ?_
  · show win0_3.index t (0 : Fin 2) * 512 + 1 * (j 0).val = t.val * 512 + (j 0).val
    rw [e30]; omega
  · show win0_3.index t (1 : Fin 2) * 4096 + 1 * (j 1).val = (j 1).val
    rw [e31]; omega

/-- A position of the array lies in point t's block iff each coordinate lies in the block's range on its axis. -/
theorem mem_block (t : Fin cfg0.N) (i : S16384x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v4).slice (win0_3.rect t)).set ↔ _
  rw [View.set_slice_whole, Rect.mem_set_unit]
  exact Iff.rfl

/-- Every position (r, o) lies in the block of point r / 512, which writes back. -/
theorem blocks_cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 32 := N_0
  refine ⟨⟨(i 0).val / 512, by rw [hN]; omega⟩, flush0_3 _, ?_⟩
  obtain ⟨-, -, -, -, -, -, e30, e31⟩ := block_positions ⟨(i 0).val / 512, by rw [hN]; omega⟩
  rw [mem_block]
  intro a
  match a with
  | ⟨0, _⟩ =>
    show win0_3.index _ (0 : Fin 2) * 512 ≤ (i 0).val ∧ (i 0).val < win0_3.index _ (0 : Fin 2) * 512 + 512
    rw [e30]
    show (i 0).val / 512 * 512 ≤ (i 0).val ∧ (i 0).val < (i 0).val / 512 * 512 + 512
    omega
  | ⟨1, _⟩ =>
    show win0_3.index _ (1 : Fin 2) * 4096 ≤ (i 1).val ∧ (i 1).val < win0_3.index _ (1 : Fin 2) * 4096 + 4096
    rw [e31]
    omega

/-- The result array after the last point: `rowsLinear` of the rows, the matrix and the row to add. -/
theorem array_after (c : Dev nD) :
    (dats m 0 c).arrAt 3 cfg0.N = rowsLinear (V m c main_v0) (V m c main_v3) (V m c main_v1) :=
  (dats m 0 c).arrAt_eq_of_cover 3 _ (fun t _ => written_block m c t) blocks_cover

end Cert.MaskedLinear

end
-- ==== Proof.Regroup.lean ====
/-
  Regrouping the rows. If the [16384, 1024] array of rows is x with its leading axes merged (row 2048 · b + s is x[b, s, ·]),
  the matrix is w ⊙ mask entry by entry, and the [1, 4096] row to add is the bias, then the plain product-plus-row
  `rowsLinear`, with its 16384 result rows regrouped into [8, 2048], is the masked linear layer: entry (b, s, o) of the
  regrouped array is entry (2048 · b + s, o), which is

      Σ k, x[b, s, k] · (w[o, k] · mask[o, k]) + bias[o]  =  Σ k, x[b, s, k] · (mask[o, k] · w[o, k]) + bias[o],

  the two differing only in the order of the factors of one product of extended reals.
-/
import proofs.«166903_j25769803815_2_alg».proof.Proof.Spec
import Idealize.ShloMosaic.Lib.Pipeline.Value

noncomputable section

namespace Cert.MaskedLinear

open Idealize.ShloMosaic Idealize.ShloMosaic.ValueIdx

theorem regroup_eq (x : (⟨3, ![8, 2048, 1024]⟩ : Shape).Idx → EReal) (w mask : (⟨2, ![4096, 1024]⟩ : Shape).Idx → EReal)
    (bias : (⟨1, ![4096]⟩ : Shape).Idx → EReal)
    (X : (⟨2, ![16384, 1024]⟩ : Shape).Idx → EReal) (W : (⟨2, ![4096, 1024]⟩ : Shape).Idx → EReal)
    (B : (⟨2, ![1, 4096]⟩ : Shape).Idx → EReal)
    (hX : ∀ (b : Fin 8) (s : Fin 2048) (k : Fin 1024) (r : Fin 16384), r.val = 2048 * b.val + s.val → X (ix2 r k) = x (ix3 b s k))
    (hW : ∀ i, W i = w i * mask i)
    (hB : ∀ o : Fin 4096, B (ix2 (0 : Fin 1) o) = bias (ix1 o))
    (h : (⟨2, ![16384, 4096]⟩ : Shape).ShapeCasts ⟨3, ![8, 2048, 4096]⟩) :
    shapeCast ⟨3, ![8, 2048, 4096]⟩ (rowsLinear X W B) h = maskedLinear x w mask bias := by
  funext i
  obtain ⟨b, s, o, rfl⟩ : ∃ (b : Fin 8) (s : Fin 2048) (o : Fin 4096), i = ix3 b s o := ⟨i 0, i 1, i 2, eq_ix3 i⟩
  have hr : 2048 * b.val + s.val < 16384 := by have := b.isLt; have := s.isLt; omega
  rw [shapeCast_apply (rowsLinear X W B) h (ix3 b s o) (ix2 ⟨2048 * b.val + s.val, hr⟩ o) (by
    rw [Shape.rowMajor_val_two, Shape.rowMajor_val_three]
    show (2048 * b.val + s.val) * 4096 + o.val = (b.val * 2048 + s.val) * 4096 + o.val
    omega)]
  unfold rowsLinear maskedLinear
  show (∑ k : Fin 1024, X (ix2 ⟨2048 * b.val + s.val, hr⟩ k) * W (ix2 o k)) + B (ix2 (0 : Fin 1) o)
    = (∑ k : Fin 1024, x (ix3 b s k) * (mask (ix2 o k) * w (ix2 o k))) + bias (ix1 o)
  rw [hB]
  refine congrArg (· + bias (ix1 o)) (Finset.sum_congr rfl fun k _ => ?_)
  rw [hX b s k _ rfl, hW, mul_comm (w _) (mask _)]

end Cert.MaskedLinear

end
-- ==== Proof.KernelRun.lean ====
/-
  The first program's run, read. After the 32 grid points the [16384, 4096] result array is `rowsLinear` of the rows, the
  matrix and the row to add; the one host operation after the grid regroups its rows into [8, 2048], which by `regroup_eq`
  gives the masked linear layer of the four argument arrays; the argument arrays end as they began.
-/
import proofs.«166903_j25769803815_2_alg».proof.Proof.Gen.KernelIdeal.Frame
import proofs.«166903_j25769803815_2_alg».proof.Proof.Spec
import proofs.«166903_j25769803815_2_alg».proof.Proof.Entry
import proofs.«166903_j25769803815_2_alg».proof.Proof.Blocks
import proofs.«166903_j25769803815_2_alg».proof.Proof.Regroup
import Idealize.ShloMosaic.Lib.Pipeline.Value
import Idealize.ShloMosaic.Lib.StableHlo.Run

noncomputable section

namespace Cert.MaskedLinear

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The result buffer after the host operation that follows the grid: the masked linear layer of the arguments. -/
theorem result_eq (c : Dev nD) :
    (Pipeline.afterTail₀ cfgs (dats m) 0 (V0 m) [hostOps1] c main_v5 : S8x2048x4096.Idx → EReal)
      = maskedLinear (m ((c : Thread nD τ).loc main_arg0)) (m ((c : Thread nD τ).loc main_arg1)) (m ((c : Thread nD τ).loc main_arg3)) (m ((c : Thread nD τ).loc main_arg2)) := by
  unfold Pipeline.afterTail₀
  show StableHlo.after hostOps1 _ (Proc.devRef .tc main_v5) = _
  after_results
  show shapeCast S8x2048x4096 (Pipeline.withArrays (cfgs 0).spec c (V0 m c) (fun w => (dats m 0 c).arrAt w (cfgs 0).N)
      (Proc.devRef .tc main_v4)) shapeCasts_S16384x4096_S8x2048x4096 = _
  have harr : Pipeline.withArrays (cfgs 0).spec c (V0 m c) (fun w => (dats m 0 c).arrAt w (cfgs 0).N) (Proc.devRef .tc main_v4)
      = rowsLinear (V m c main_v0) (V m c main_v3) (V m c main_v1) :=
    (Pipeline.withArrays_arr spec0 launch0.win.arr_inj c _ _ 3).trans (array_after m c)
  rw [harr]
  exact regroup_eq _ _ _ _ _ _ _ (entry_rows_apply m c) (fun i => (entry_mat_apply m c i).trans rfl) (entry_add_apply m c) _

/-- Every weakly fair execution of the first program ends with the result at the masked linear layer of the argument
    arrays and the argument arrays unchanged. -/
theorem kernel_run : θ_run defs (onTc (τ := τ) (main (F := Ideal))) ⟨m, fun _ => 0, ρ⟩ (fun r => ∀ c : Dev nD,
      r.2.mem ((c : Thread nD τ).loc main_v5)
        = maskedLinear (m ((c : Thread nD τ).loc main_arg0)) (m ((c : Thread nD τ).loc main_arg1)) (m ((c : Thread nD τ).loc main_arg3)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.MaskedLinear

end
-- ==== Proof.lean ====
/-
  Two programs for a linear layer whose weight matrix is masked entry by entry,

      y[b, s, o] = Σ k < 1024, x[b, s, k] · (mask[o, k] · w[o, k]) + bias[o],     x : [8, 2048, 1024],  w, mask : [4096, 1024],

  compute the same function over the extended reals. The second forms mask ⊙ w, contracts x's last axis with it and adds
  the bias (`Cert.MaskedLinear.reference_eq`). The first merges x's leading axes into 16384 rows, forms w ⊙ mask, and on a
  grid of 32 points multiplies 512 rows at a time with the transpose of that matrix and adds the bias row
  (`body_apply`); the 32 row blocks fill the [16384, 4096] result (`array_after`), whose rows are then regrouped into
  [8, 2048] (`result_eq`). Entry by entry the two differ only in the order of the two factors w[o, k] and mask[o, k], and
  a product of extended reals does not depend on that order (`regroup_eq`): no entry needs to be finite, and the
  precondition is not used. The changes of float format in the first program are the identity over the extended reals,
  and no operation of it was rewritten when it was idealized, so that claim is the trivial one.
-/
import proofs.«166903_j25769803815_2_alg».proof.Defs
import proofs.«166903_j25769803815_2_alg».proof.Proof.Gen.Kernel
import proofs.«166903_j25769803815_2_alg».proof.Proof.Gen.Kernel.Skeleton
import proofs.«166903_j25769803815_2_alg».proof.Proof.Gen.Kernel.Launch
import proofs.«166903_j25769803815_2_alg».proof.Proof.Gen.Kernel.Points
import proofs.«166903_j25769803815_2_alg».proof.Proof.Gen.Kernel.Frame
import proofs.«166903_j25769803815_2_alg».proof.Proof.Gen.KernelIdeal
import proofs.«166903_j25769803815_2_alg».proof.Proof.Gen.KernelIdeal.Skeleton
import proofs.«166903_j25769803815_2_alg».proof.Proof.Gen.KernelIdeal.Launch
import proofs.«166903_j25769803815_2_alg».proof.Proof.Gen.KernelIdeal.Points
import proofs.«166903_j25769803815_2_alg».proof.Proof.Gen.KernelIdeal.Frame
import proofs.«166903_j25769803815_2_alg».proof.Proof.Gen.ReferenceIdeal
import proofs.«166903_j25769803815_2_alg».proof.Proof.Gen.ReferenceIdeal.Run
import proofs.«166903_j25769803815_2_alg».proof.Proof.Gen.ReferenceIdeal.Read
import proofs.«166903_j25769803815_2_alg».proof.Proof.Gen.Pre_finite_inputs
import proofs.«166903_j25769803815_2_alg».proof.Proof.Spec
import proofs.«166903_j25769803815_2_alg».proof.Proof.RefSpec
import proofs.«166903_j25769803815_2_alg».proof.Proof.KernelRun
import Idealize.ShloMosaic.Adequacy
import Idealize.ShloMosaic.Init

noncomputable section

namespace Cert.Proof

open Idealize.ShloMosaic Idealize.SL.Sem

/-- The word-level program runs and leaves its arguments as they were. -/
theorem frame_kernel : Cert.frame_Kernel := fun m ρ _ => Cert.Kernel.Gen.frame m ρ

/-- So does the same program read over the extended reals. -/
theorem frame_kernelIdeal : Cert.frame_KernelIdeal := fun m ρ _ => Cert.KernelIdeal.Gen.frame m ρ

/-- The second program is a sequence of five host operations: it runs, and writes none of its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x, w, bias and mask, both programs end with the masked linear layer of those four
    arrays in their result: the first by `kernel_run`, the second by its run read stage by stage (`reference_eq`). -/
theorem algebraic : Cert.algebraic_KernelIdeal_ReferenceIdeal := by
  intro m ρ m' ρ' _ hagree
  refine ⟨fun c => Cert.MaskedLinear.maskedLinear (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg2)),
    Cert.MaskedLinear.kernel_run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v4_eq, Cert.MaskedLinear.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
